-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x128 .f32) (main_arg9 : FVec F S256 .f32) (main_arg10 : FVec F S256x128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S256x128 .f32) (main_arg9 : FVec F S256 .f32) (main_arg10 : FVec F S256x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x128 .f32) (main_arg9 : FVec F S256 .f32) (main_arg10 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩
abbrev S50000x256 : Shape := ⟨2, ![50000, 256]⟩
abbrev S2000x256 : Shape := ⟨2, ![2000, 256]⟩
abbrev S128x256 : Shape := ⟨2, ![128, 256]⟩
abbrev S1x256 : Shape := ⟨2, ![1, 256]⟩

abbrev nBuf : Space → Nat
  | .hbm => 77
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S256, .f32⟩
  | .hbm, ⟨10, _⟩ => ⟨S256x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S128x128, .bf16⟩
  | .hbm, ⟨26, _⟩ => ⟨S128x128, .bf16⟩
  | .hbm, ⟨27, _⟩ => ⟨S128x128, .bf16⟩
  | .hbm, ⟨28, _⟩ => ⟨S128x128, .bf16⟩
  | .hbm, ⟨29, _⟩ => ⟨S256x128, .bf16⟩
  | .hbm, ⟨30, _⟩ => ⟨S256x128, .bf16⟩
  | .hbm, ⟨31, _⟩ => ⟨S50000x128, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .bf16⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .bf16⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .bf16⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .bf16⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .bf16⟩
  | .local _ .vmem, ⟨5, _⟩ => ⟨S2000x128, .bf16⟩
  | .local _ .vmem, ⟨6, _⟩ => ⟨S128x128, .bf16⟩
  | .local _ .vmem, ⟨7, _⟩ => ⟨S128x128, .bf16⟩
  | .local _ .vmem, ⟨8, _⟩ => ⟨S128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .bf16⟩
  | .local _ .vmem, ⟨16, _⟩ => ⟨S2000x128, .bf16⟩
  | .local _ .vmem, ⟨17, _⟩ => ⟨S128x128, .bf16⟩
  | .local _ .vmem, ⟨18, _⟩ => ⟨S128x128, .bf16⟩
  | .local _ .vmem, ⟨19, _⟩ => ⟨S128, .f32⟩
  | .local _ .vmem, ⟨20, _⟩ => ⟨S2000x128, .bf16⟩
  | .local _ .vmem, ⟨21, _⟩ => ⟨S2000x128, .bf16⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .bf16⟩
  | .local _ .vmem, ⟨27, _⟩ => ⟨S2000x128, .bf16⟩
  | .local _ .vmem, ⟨28, _⟩ => ⟨S256x128, .bf16⟩
  | .local _ .vmem, ⟨29, _⟩ => ⟨S256x128, .bf16⟩
  | .local _ .vmem, ⟨30, _⟩ => ⟨S256, .f32⟩
  | .local _ .vmem, ⟨31, _⟩ => ⟨S2000x256, .f32⟩
  | .local _ .vmem, ⟨32, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .bf16 = 32 ∨ (Rect.block (s := S50000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .bf16 = 32 ∨ (Rect.block (s := S256x128) S256x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v28) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x256 : Shape := ⟨2, ![128, 256]⟩
abbrev S50000x256 : Shape := ⟨2, ![50000, 256]⟩
abbrev S1x256 : Shape := ⟨2, ![1, 256]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S256, .f32⟩
  | .hbm, ⟨10, _⟩ => ⟨S256x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S_, .f32⟩
  | .hbm, ⟨101, _⟩ => ⟨S800000, .f32⟩
  | .hbm, ⟨102, _⟩ => ⟨S_, .f32⟩
  | .hbm, ⟨103, _⟩ => ⟨S50000, .f32⟩
  | .hbm, ⟨104, _⟩ => ⟨S800000x1, .i32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x128, .f32⟩
  | .hbm, ⟨111, _⟩ => ⟨S50000x128, .f32⟩
  | .hbm, ⟨112, _⟩ => ⟨S128x256, .f32⟩
  | .hbm, ⟨113, _⟩ => ⟨S50000x256, .f32⟩
  | .hbm, ⟨114, _⟩ => ⟨S1x256, .f32⟩
  | .hbm, ⟨115, _⟩ => ⟨S50000x256, .f32⟩
  | .hbm, ⟨116, _⟩ => ⟨S50000x256, .f32⟩
  | .hbm, ⟨117, _⟩ => ⟨S128x256, .f32⟩
  | .hbm, ⟨118, _⟩ => ⟨S50000x256, .f32⟩
  | .hbm, ⟨119, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.KernelRun.lean ====
/-
  The idealized kernel program's run, with its result named.

  The program is three kernel regions among stretches of host operations. Its buffer contents at every boundary are a
  fold from the launch memory: a stretch applies its operations, a region replaces its arrays by what its write-backs
  leave. Every weakly fair execution terminates with every unscoped buffer at the last boundary's contents; read at the
  result buffer that is the last region's output array after all its write-backs, and at the arguments it is the launch
  memory.
-/
import proofs.«167573_j53163105190283_2_alg».proof.Proof.KernelIdealFrameP

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents and every argument
    as launched. -/
theorem run_named : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Whole

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«167573_j53163105190283_2_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«167573_j53163105190283_2_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibSageLayer.lean ====
/-
  One mean-aggregating graph layer read at an entry, in a kernel tile's spelling and in a host program's spelling.

  The layer takes, for every node p, the neighbour sum agg(p, ·) divided by the node's clamped in-degree c(p), multiplies
  that mean row by the left weights, adds the bias, and adds the node's own feature row h(p, ·) times the right weights:
      out(p, q) = Σ_k (agg(p, k) / c(p)) · wl(q, k)  +  b(q)  +  Σ_k h(p, k) · wr(q, k).
  Both weight matrices are stored [D, K] and used transposed. A kernel tile computes the two products first and adds the
  bias last; a host program adds the bias to the first product and the second product last. On the extended reals
  addition is commutative and associative, so the two orders are one value: no finiteness is needed.
-/
import Idealize.ShloMosaic.Lib.Pipeline.Value
import Idealize.ShloMosaic.Lib.ValueLayout
import proofs.«167573_j53163105190283_2_alg».proof.Proof.LibMatmul2
import proofs.«167573_j53163105190283_2_alg».proof.Proof.LibAffineLayer
import proofs.«167573_j53163105190283_2_alg».proof.Proof.LibHostDot2
import proofs.«167573_j53163105190283_2_alg».proof.Proof.LibHostRowCol

noncomputable section

namespace Cert.Lib

open Idealize.ShloMosaic Idealize.ShloMosaic.ValueIdx

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {N K D : ℕ}

/-- Entry `(p, q)` of the layer: the mean neighbour row through the left weights, plus the bias, plus the node's own
    row through the right weights. -/
def sageAt (agg : (⟨2, ![N, K]⟩ : Shape).Idx → EReal) (c : Fin N → EReal) (h : (⟨2, ![N, K]⟩ : Shape).Idx → EReal)
    (wl : (⟨2, ![D, K]⟩ : Shape).Idx → EReal) (b : (⟨1, ![D]⟩ : Shape).Idx → EReal)
    (wr : (⟨2, ![D, K]⟩ : Shape).Idx → EReal) (p : Fin N) (q : Fin D) : EReal :=
  (∑ k : Fin K, Ideal.div (agg (ix2 p k)) (c p) * wl (ix2 q k)) + b (ix1 q) + ∑ k : Fin K, h (ix2 p k) * wr (ix2 q k)

/-- The layer as an array. -/
def sageLin (agg : (⟨2, ![N, K]⟩ : Shape).Idx → EReal) (c : Fin N → EReal) (h : (⟨2, ![N, K]⟩ : Shape).Idx → EReal)
    (wl : (⟨2, ![D, K]⟩ : Shape).Idx → EReal) (b : (⟨1, ![D]⟩ : Shape).Idx → EReal)
    (wr : (⟨2, ![D, K]⟩ : Shape).Idx → EReal) : (⟨2, ![N, D]⟩ : Shape).Idx → EReal :=
  fun i => sageAt agg c h wl b wr (i 0) (i 1)

/-- The layer followed by the rectifier `max · 0`, as an array. -/
def sageRelu (agg : (⟨2, ![N, K]⟩ : Shape).Idx → EReal) (c : Fin N → EReal) (h : (⟨2, ![N, K]⟩ : Shape).Idx → EReal)
    (wl : (⟨2, ![D, K]⟩ : Shape).Idx → EReal) (b : (⟨1, ![D]⟩ : Shape).Idx → EReal)
    (wr : (⟨2, ![D, K]⟩ : Shape).Idx → EReal) : (⟨2, ![N, D]⟩ : Shape).Idx → EReal :=
  fun i => max (sageAt agg c h wl b wr (i 0) (i 1)) (Ideal.ofBits .f32 0x00000000#32)

/-- A KERNEL TILE of the layer: the quotient by the degree column broadcast along the row, rounded to a narrower format
    (the identity on extended reals), times the transposed left weights into the zero accumulator; the feature rows times
    the transposed right weights into the zero accumulator; their sum; plus the bias made a row and repeated. At
    `(p, q)` it is the layer's entry, the degree read from the column. -/
theorem sageTile_apply (wf : DotDims.WF ⟨2, ![N, K]⟩ ⟨2, ![K, D]⟩ ⟨2, ![N, D]⟩ [1] [0] [0] [1] [] [])
    (agg : FVec Ideal ⟨2, ![N, K]⟩ .f32) (cnt : FVec Ideal ⟨2, ![N, 1]⟩ .f32) (h : FVec Ideal ⟨2, ![N, K]⟩ .bf16)
    (wl wr : FVec Ideal ⟨2, ![D, K]⟩ .bf16) (b : FVec Ideal ⟨1, ![D]⟩ .f32)
    (hNK : (⟨2, ![N, K]⟩ : Shape).ShapeCasts ⟨2, ![N, K]⟩) (hN1 : (⟨2, ![N, 1]⟩ : Shape).ShapeCasts ⟨2, ![N, 1]⟩)
    (hcol : (⟨2, ![N, 1]⟩ : Shape).Broadcasts ⟨2, ![N, K]⟩) (hDK : (⟨2, ![D, K]⟩ : Shape).ShapeCasts ⟨2, ![D, K]⟩)
    (htr : (⟨2, ![D, K]⟩ : Shape).Transposes [1, 0] ⟨2, ![K, D]⟩)
    (hc : (⟨1, ![D]⟩ : Shape).ShapeCasts ⟨2, ![1, D]⟩) (hb : (⟨2, ![1, D]⟩ : Shape).Broadcasts ⟨2, ![N, D]⟩)
    (hlt : FTy.bf16.bits < FTy.f32.bits) (p : Fin N) (q : Fin D) :
    addf (addf
        (matmul (plain2 wf) none
          (truncf .bf16 (divf (shapeCast ⟨2, ![N, K]⟩ agg hNK) (broadcastTo ⟨2, ![N, K]⟩ (shapeCast ⟨2, ![N, 1]⟩ cnt hN1) hcol)) hlt)
          (transpose ⟨2, ![K, D]⟩ [1, 0] (shapeCast ⟨2, ![D, K]⟩ wl hDK) htr) (constant ⟨2, ![N, D]⟩ .f32 0x00000000#32))
        (matmul (plain2 wf) none (shapeCast ⟨2, ![N, K]⟩ h hNK)
          (transpose ⟨2, ![K, D]⟩ [1, 0] (shapeCast ⟨2, ![D, K]⟩ wr hDK) htr) (constant ⟨2, ![N, D]⟩ .f32 0x00000000#32)))
      (broadcastTo ⟨2, ![N, D]⟩ (shapeCast ⟨2, ![1, D]⟩ b hc) hb) (ix2 p q)
    = sageAt agg (fun r => cnt (ix2 r (0 : Fin 1))) h wl b wr p q := by
  rw [addf_apply, addf_apply, matmul2_zero_apply wf _ _ p q, matmul2_zero_apply wf _ _ p q, rowBroadcast_apply b hc hb p q]
  unfold sageAt
  rw [add_right_comm]
  refine congrArg₂ (· + ·) (congrArg₂ (· + ·) ?_ rfl) ?_
  · refine Finset.sum_congr rfl fun k _ => ?_
    rw [truncf_apply, divf_apply, shapeCast_self, broadcastTo_a1_ab_apply, shapeCast_self, transpose_ix2_apply, shapeCast_self]
  · refine Finset.sum_congr rfl fun k _ => ?_
    rw [shapeCast_self, transpose_ix2_apply, shapeCast_self]

/-- A HOST PROGRAM's spelling of the layer: the neighbour sums divided by the degree vector made a column and repeated
    along the rows, through `dot_general` with the transposed left weights; plus the bias made a row and repeated down
    the rows; plus the features through `dot_general` with the transposed right weights. At `(p, q)` it is the layer's
    entry, the degree read from the vector. -/
theorem sageHost_apply (wf : DotDims.WF ⟨2, ![N, K]⟩ ⟨2, ![K, D]⟩ ⟨2, ![N, D]⟩ [1] [0] [0] [1] [] [])
    (agg h : FVec Ideal ⟨2, ![N, K]⟩ .f32) (cnt : FVec Ideal ⟨1, ![N]⟩ .f32)
    (wl wr : FVec Ideal ⟨2, ![D, K]⟩ .f32) (b : FVec Ideal ⟨1, ![D]⟩ .f32)
    (hc1 : (⟨1, ![N]⟩ : Shape).BroadcastsInDim ⟨2, ![N, 1]⟩ (![0] : Fin 1 → Fin 2))
    (hc2 : (⟨2, ![N, 1]⟩ : Shape).BroadcastsInDim ⟨2, ![N, K]⟩ (![0, 1] : Fin 2 → Fin 2))
    (htr : (⟨2, ![D, K]⟩ : Shape).Transposes [1, 0] ⟨2, ![K, D]⟩)
    (hb1 : (⟨1, ![D]⟩ : Shape).BroadcastsInDim ⟨2, ![1, D]⟩ (![1] : Fin 1 → Fin 2))
    (hb2 : (⟨2, ![1, D]⟩ : Shape).BroadcastsInDim ⟨2, ![N, D]⟩ (![0, 1] : Fin 2 → Fin 2)) (p : Fin N) (q : Fin D) :
    addf (addf
        (Host.dotGeneral (plain2 wf) none
          (Host.divf agg (broadcastInDim ⟨2, ![N, K]⟩ ![0, 1] hc2 (broadcastInDim ⟨2, ![N, 1]⟩ ![0] hc1 cnt)))
          (transpose ⟨2, ![K, D]⟩ [1, 0] wl htr))
        (broadcastInDim ⟨2, ![N, D]⟩ ![0, 1] hb2 (broadcastInDim ⟨2, ![1, D]⟩ ![1] hb1 b)))
      (Host.dotGeneral (plain2 wf) none h (transpose ⟨2, ![K, D]⟩ [1, 0] wr htr)) (ix2 p q)
    = sageAt agg (fun r => cnt (ix1 r)) h wl b wr p q := by
  rw [addf_apply, addf_apply, hostDot2_apply wf _ _ p q, hostDot2_apply wf _ _ p q, bcast_row_rows_apply b hb1 hb2 p q]
  unfold sageAt
  refine congrArg₂ (· + ·) (congrArg₂ (· + ·) ?_ rfl) ?_
  · refine Finset.sum_congr rfl fun k _ => ?_
    rw [transpose_ix2_apply]
    show Ideal.div (agg (ix2 p k)) (broadcastInDim ⟨2, ![N, K]⟩ ![0, 1] hc2 (broadcastInDim ⟨2, ![N, 1]⟩ ![0] hc1 cnt) (ix2 p k)) * _ = _
    rw [bcast_col_cols_apply cnt hc1 hc2 p k]
  · refine Finset.sum_congr rfl fun k _ => ?_
    rw [transpose_ix2_apply]

end Cert.Lib

end
-- ==== Proof.TilePayloads.lean ====
/-
  What each of the three kernel bodies stores, read at an entry of the tile.

  All three bodies are the same layer on a tile of 2000 node rows: the neighbour-sum block divided by the degree column,
  times the transposed left weights, plus the feature block times the transposed right weights, plus the bias row; the
  first two then take the maximum with zero and narrow the format (the identity on extended reals), the third stores the
  sum as it is. At entry (p, q) of the tile each is the layer's entry of the loaded blocks.
-/
import proofs.«167573_j53163105190283_2_alg».proof.Proof.Gen.KernelIdeal.Skeleton
import proofs.«167573_j53163105190283_2_alg».proof.Proof.LibSageLayer

noncomputable section

namespace Cert.KernelIdeal.Tile

open Cert.KernelIdeal Cert.KernelIdeal.Gen Cert.Lib
open Idealize.ShloMosaic Idealize.ShloMosaic.ValueIdx

/-- The two printed products' dimension numbers are those of a plain matrix product. -/
theorem dot128_eq : dot_S2000x128_S128x128_S2000x128_1_0_0_1_n_n = plain2 dot_S2000x128_S128x128_S2000x128_1_0_0_1_n_n_wf := rfl
theorem dot256_eq : dot_S2000x128_S128x256_S2000x256_1_0_0_1_n_n = plain2 dot_S2000x128_S128x256_S2000x256_1_0_0_1_n_n_wf := rfl

/-- The first layer's tile: the rectified layer entry. -/
theorem pay0_apply (x0 : Vec Ideal S2000x128 .f32) (x1 : Vec Ideal S2000x1 .f32) (x2 : Vec Ideal S2000x128 .bf16)
    (x3 x4 : Vec Ideal S128x128 .bf16) (x5 : Vec Ideal S128 .f32) (p : Fin 2000) (q : Fin 128) :
    k0_pay1 x0 x1 x2 x3 x4 x5 (ix2 p q)
      = max (sageAt x0 (fun r => x1 (ix2 r (0 : Fin 1))) x2 x3 x5 x4 p q) (Ideal.ofBits .f32 0x00000000#32) := by
  unfold k0_pay1
  rw [dot128_eq]
  rw [truncf_apply, maximumf_apply]
  refine congrArg₂ max ?_ rfl
  exact sageTile_apply dot_S2000x128_S128x128_S2000x128_1_0_0_1_n_n_wf x0 x1 x2 x3 x4 x5
    shapeCasts_S2000x128_S2000x128 shapeCasts_S2000x1_S2000x1 broadcasts_S2000x1_S2000x128 shapeCasts_S128x128_S128x128
    transposes_S128x128_p1_0_S128x128 shapeCasts_S128_S1x128 broadcasts_S1x128_S2000x128 bitsLt_bf16_f32 p q

/-- The second layer's tile: the same body. -/
theorem pay1_apply (x0 : Vec Ideal S2000x128 .f32) (x1 : Vec Ideal S2000x1 .f32) (x2 : Vec Ideal S2000x128 .bf16)
    (x3 x4 : Vec Ideal S128x128 .bf16) (x5 : Vec Ideal S128 .f32) (p : Fin 2000) (q : Fin 128) :
    k1_pay1 x0 x1 x2 x3 x4 x5 (ix2 p q)
      = max (sageAt x0 (fun r => x1 (ix2 r (0 : Fin 1))) x2 x3 x5 x4 p q) (Ideal.ofBits .f32 0x00000000#32) := by
  unfold k1_pay1
  rw [dot128_eq]
  rw [truncf_apply, maximumf_apply]
  refine congrArg₂ max ?_ rfl
  exact sageTile_apply dot_S2000x128_S128x128_S2000x128_1_0_0_1_n_n_wf x0 x1 x2 x3 x4 x5
    shapeCasts_S2000x128_S2000x128 shapeCasts_S2000x1_S2000x1 broadcasts_S2000x1_S2000x128 shapeCasts_S128x128_S128x128
    transposes_S128x128_p1_0_S128x128 shapeCasts_S128_S1x128 broadcasts_S1x128_S2000x128 bitsLt_bf16_f32 p q

/-- The last layer's tile: 256 output columns, no rectifier. -/
theorem pay2_apply (x0 : Vec Ideal S2000x128 .f32) (x1 : Vec Ideal S2000x1 .f32) (x2 : Vec Ideal S2000x128 .bf16)
    (x3 x4 : Vec Ideal S256x128 .bf16) (x5 : Vec Ideal S256 .f32) (p : Fin 2000) (q : Fin 256) :
    k2_pay1 x0 x1 x2 x3 x4 x5 (ix2 p q) = sageAt x0 (fun r => x1 (ix2 r (0 : Fin 1))) x2 x3 x5 x4 p q := by
  unfold k2_pay1
  rw [dot256_eq]
  exact sageTile_apply dot_S2000x128_S128x256_S2000x256_1_0_0_1_n_n_wf x0 x1 x2 x3 x4 x5
    shapeCasts_S2000x128_S2000x128 shapeCasts_S2000x1_S2000x1 broadcasts_S2000x1_S2000x128 shapeCasts_S256x128_S256x128
    transposes_S256x128_p1_0_S128x256 shapeCasts_S256_S1x256 broadcasts_S1x256_S2000x256 bitsLt_bf16_f32 p q

end Cert.KernelIdeal.Tile

end
-- ==== Proof.Region0.lean ====
/-
  Kernel region 0: the array it leaves, as one function of the arrays it finds.

  The region runs the layer tile by tile over 25 grid points. Point t stages rows 2000·t … 2000·t + 1999 of the
  neighbour-sum array, of the degree column and of the feature array, the two weight matrices and the bias whole, and
  writes back rows 2000·t … 2000·t + 1999 of the output. What it writes is, entry by entry, the layer's entry at the
  corresponding global row, rectified: a row of the tile reads only its own row of the staged blocks, and that row is the global
  row of the arrays. The 25 row bands cover the 50000 rows, so after the run the output array is the layer of the whole
  arrays. Stated at any contents `V` the region may be entered with.
-/
import proofs.«167573_j53163105190283_2_alg».proof.Proof.KernelIdealFrameP
import proofs.«167573_j53163105190283_2_alg».proof.Proof.TilePayloads

set_option maxRecDepth 16384

noncomputable section

namespace Cert.KernelIdeal.Layer0

open Cert.KernelIdeal Cert.KernelIdeal.Gen Cert.KernelIdeal.GenP Cert.KernelIdeal.Tile Cert.Lib
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The layer of whole arrays, the degree read from a column. -/
abbrev layer (AGG : S50000x128.Idx → EReal) (CNT : S50000x1.Idx → EReal) (H : S50000x128.Idx → EReal)
    (WL WR : S128x128.Idx → EReal) (B : S128.Idx → EReal) : S50000x128.Idx → EReal :=
  sageRelu AGG (fun r => CNT (ix2 r (0 : Fin 1))) H WL B WR

/-- The printed index maps over the grid: the three row-banded inputs move with the output, band t at point t; the
    weights and the bias stay at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- One entry of what a point stores: blocks that are row band `T` of the arrays (and the weights and bias whole) give,
    at tile entry `y`, the layer of the whole arrays at the global entry `i` in band `T`. -/
theorem point_entry (AGG H : S50000x128.Idx → EReal) (CNT : S50000x1.Idx → EReal) (WL WR : S128x128.Idx → EReal)
    (B : S128.Idx → EReal)
    (x0 : Vec Ideal S2000x128 .f32) (x1 : Vec Ideal S2000x1 .f32) (x2 : Vec Ideal S2000x128 .bf16)
    (x3 x4 : Vec Ideal S128x128 .bf16) (x5 : Vec Ideal S128 .f32)
    (T : ℕ) (y : S2000x128.Idx) (i : S50000x128.Idx)
    (hi0 : (i 0).val = T * 2000 + (y 0).val) (hi1 : (i 1).val = (y 1).val)
    (e0 : ∀ (r : Fin 2000) (k : Fin 128) (g : Fin 50000), g.val = T * 2000 + r.val → x0 (ix2 r k) = AGG (ix2 g k))
    (e1 : ∀ (r : Fin 2000) (g : Fin 50000), g.val = T * 2000 + r.val → x1 (ix2 r (0 : Fin 1)) = CNT (ix2 g (0 : Fin 1)))
    (e2 : ∀ (r : Fin 2000) (k : Fin 128) (g : Fin 50000), g.val = T * 2000 + r.val → x2 (ix2 r k) = H (ix2 g k))
    (e3 : x3 = WL) (e4 : x4 = WR) (e5 : x5 = B) :
    k0_pay1 x0 x1 x2 x3 x4 x5 y = layer AGG CNT H WL WR B i := by
  obtain ⟨p, q, rfl⟩ : ∃ (p : Fin 2000) (q : Fin 128), y = ix2 p q := ⟨y 0, y 1, eq_ix2 y⟩
  subst e3 e4 e5
  rw [pay0_apply]
  have hq : (i 1 : Fin 128) = q := Fin.ext hi1
  have a0 : ∀ k : Fin 128, AGG (ix2 (i 0) k) = x0 (ix2 p k) := fun k => (e0 p k (i 0) hi0).symm
  have a1 : CNT (ix2 (i 0) (0 : Fin 1)) = x1 (ix2 p (0 : Fin 1)) := (e1 p (i 0) hi0).symm
  have a2 : ∀ k : Fin 128, H (ix2 (i 0) k) = x2 (ix2 p k) := fun k => (e2 p k (i 0) hi0).symm
  show _ = sageRelu AGG (fun r => CNT (ix2 r (0 : Fin 1))) H x3 x5 x4 i
  unfold sageRelu sageAt
  simp only [a0, a1, a2, hq]

/-- WHAT POINT `t` WRITES BACK is row band `t` of the layer of the arrays as the region finds them. -/
theorem flushed_eq (c : Dev nD) (t : Fin cfg0.N) :
    (dat0 V c).flushed 6 t = ((cfg0.win 6).blk t).view.read (Elt Ideal)
      (layer (V c main_v28) (V c main_v10) (V c main_v17) (V c main_v11) (V c main_v12) (V c main_arg3)) := by
  show (cfg0.win 6).cut (grid0.coords t) ((dat0 V c).after 6 t) = _
  rw [after0_6]
  unfold out0_6
  rw [View.canon_unit_zero origin2]
  simp only [View.ld_unit_zero (S := S2000x128) origin2, View.ld_unit_zero (S := S2000x1) origin2,
    View.ld_unit_zero (S := S128x128) origin2, View.ld_unit_zero (S := S128) origin1]
  obtain ⟨f00, f01, f10, f11, f20, f21, f30, f31, f40, f41, f50, f60, f61⟩ := index_maps t
  funext j
  show k0_pay1 (iblk0 V c 0 t) (iblk0 V c 1 t) (iblk0 V c 2 t) (iblk0 V c 3 t) (iblk0 V c 4 t) (iblk0 V c 5 t) j
    = layer (V c main_v28) (V c main_v10) (V c main_v17) (V c main_v11) (V c main_v12) (V c main_arg3) (((cfg0.win 6).blk t).view.emb j)
  refine point_entry (V c main_v28) (V c main_v17) (V c main_v10) (V c main_v11) (V c main_v12) (V c main_arg3)
    (iblk0 V c 0 t) (iblk0 V c 1 t) (iblk0 V c 2 t) (iblk0 V c 3 t) (iblk0 V c 4 t) (iblk0 V c 5 t)
    t.val j (((cfg0.win 6).blk t).view.emb j) ?_ ?_ ?_ ?_ ?_ ?_ ?_ ?_
  · show win0_6.index t (0 : Fin 2) * 2000 + 1 * (j 0).val = t.val * 2000 + (j 0).val
    omega
  · show win0_6.index t (1 : Fin 2) * 128 + 1 * (j 1).val = (j 1).val
    omega
  · intro r k g hg
    show V c main_v28 (((cfg0.win 0).blk t).view.emb (ix2 r k)) = V c main_v28 (ix2 g k)
    refine congrArg _ (funext fun a => Fin.ext ?_)
    match a with
    | ⟨0, _⟩ => show win0_0.index t (0 : Fin 2) * 2000 + 1 * r.val = g.val; omega
    | ⟨1, _⟩ => show win0_0.index t (1 : Fin 2) * 128 + 1 * k.val = k.val; omega
  · intro r g hg
    show V c main_v10 (((cfg0.win 1).blk t).view.emb (ix2 r (0 : Fin 1))) = V c main_v10 (ix2 g (0 : Fin 1))
    refine congrArg _ (funext fun a => Fin.ext ?_)
    match a with
    | ⟨0, _⟩ => show win0_1.index t (0 : Fin 2) * 2000 + 1 * r.val = g.val; omega
    | ⟨1, _⟩ => show win0_1.index t (1 : Fin 2) * 1 + 1 * 0 = 0; omega
  · intro r k g hg
    show V c main_v17 (((cfg0.win 2).blk t).view.emb (ix2 r k)) = V c main_v17 (ix2 g k)
    refine congrArg _ (funext fun a => Fin.ext ?_)
    match a with
    | ⟨0, _⟩ => show win0_2.index t (0 : Fin 2) * 2000 + 1 * r.val = g.val; omega
    | ⟨1, _⟩ => show win0_2.index t (1 : Fin 2) * 128 + 1 * k.val = k.val; omega
  · funext y
    show V c main_v11 (((cfg0.win 3).blk t).view.emb y) = V c main_v11 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v12 (((cfg0.win 4).blk t).view.emb y) = V c main_v12 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_arg3 (((cfg0.win 5).blk t).view.emb y) = V c main_arg3 y
    refine congrArg _ (funext fun a => Fin.ext ?_)
    match a with
    | ⟨0, _⟩ => show win0_5.index t (0 : Fin 1) * 128 + 1 * (y 0).val = (y 0).val; omega

/-- An index of the output array is in point `t`'s block iff each coordinate is in the block's range on its axis. -/
theorem mem_band (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v29).slice (win0_6.rect t)).set ↔ _
  rw [View.set_slice_whole, Rect.mem_set_unit]
  exact Iff.rfl

/-- Every entry of the output array is in the band of the point its row divided by 2000 names. -/
theorem bands_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show (i 0).val / 2000 < 25; omega⟩, rfl⟩
  obtain ⟨-, -, -, -, -, -, -, -, -, -, -, f60, f61⟩ := index_maps t
  refine ⟨t, flush0_6 t, ?_⟩
  rw [mem_band]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-- THE OUTPUT ARRAY after the region: the layer of the arrays the region was entered with. -/
theorem final (c : Dev nD) :
    (dat0 V c).arrAt 6 cfg0.N
      = layer (V c main_v28) (V c main_v10) (V c main_v17) (V c main_v11) (V c main_v12) (V c main_arg3) :=
  (dat0 V c).arrAt_eq_of_cover 6 _ (fun t _ => flushed_eq V c t) bands_cover

end Cert.KernelIdeal.Layer0

end
-- ==== Proof.Region1.lean ====
/-
  Kernel region 1: the array it leaves, as one function of the arrays it finds.

  The region runs the layer tile by tile over 25 grid points. Point t stages rows 2000·t … 2000·t + 1999 of the
  neighbour-sum array, of the degree column and of the feature array, the two weight matrices and the bias whole, and
  writes back rows 2000·t … 2000·t + 1999 of the output. What it writes is, entry by entry, the layer's entry at the
  corresponding global row, rectified: a row of the tile reads only its own row of the staged blocks, and that row is the global
  row of the arrays. The 25 row bands cover the 50000 rows, so after the run the output array is the layer of the whole
  arrays. Stated at any contents `V` the region may be entered with.
-/
import proofs.«167573_j53163105190283_2_alg».proof.Proof.KernelIdealFrameP
import proofs.«167573_j53163105190283_2_alg».proof.Proof.TilePayloads

set_option maxRecDepth 16384

noncomputable section

namespace Cert.KernelIdeal.Layer1

open Cert.KernelIdeal Cert.KernelIdeal.Gen Cert.KernelIdeal.GenP Cert.KernelIdeal.Tile Cert.Lib
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The layer of whole arrays, the degree read from a column. -/
abbrev layer (AGG : S50000x128.Idx → EReal) (CNT : S50000x1.Idx → EReal) (H : S50000x128.Idx → EReal)
    (WL WR : S128x128.Idx → EReal) (B : S128.Idx → EReal) : S50000x128.Idx → EReal :=
  sageRelu AGG (fun r => CNT (ix2 r (0 : Fin 1))) H WL B WR

/-- The printed index maps over the grid: the three row-banded inputs move with the output, band t at point t; the
    weights and the bias stay at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- One entry of what a point stores: blocks that are row band `T` of the arrays (and the weights and bias whole) give,
    at tile entry `y`, the layer of the whole arrays at the global entry `i` in band `T`. -/
theorem point_entry (AGG H : S50000x128.Idx → EReal) (CNT : S50000x1.Idx → EReal) (WL WR : S128x128.Idx → EReal)
    (B : S128.Idx → EReal)
    (x0 : Vec Ideal S2000x128 .f32) (x1 : Vec Ideal S2000x1 .f32) (x2 : Vec Ideal S2000x128 .bf16)
    (x3 x4 : Vec Ideal S128x128 .bf16) (x5 : Vec Ideal S128 .f32)
    (T : ℕ) (y : S2000x128.Idx) (i : S50000x128.Idx)
    (hi0 : (i 0).val = T * 2000 + (y 0).val) (hi1 : (i 1).val = (y 1).val)
    (e0 : ∀ (r : Fin 2000) (k : Fin 128) (g : Fin 50000), g.val = T * 2000 + r.val → x0 (ix2 r k) = AGG (ix2 g k))
    (e1 : ∀ (r : Fin 2000) (g : Fin 50000), g.val = T * 2000 + r.val → x1 (ix2 r (0 : Fin 1)) = CNT (ix2 g (0 : Fin 1)))
    (e2 : ∀ (r : Fin 2000) (k : Fin 128) (g : Fin 50000), g.val = T * 2000 + r.val → x2 (ix2 r k) = H (ix2 g k))
    (e3 : x3 = WL) (e4 : x4 = WR) (e5 : x5 = B) :
    k1_pay1 x0 x1 x2 x3 x4 x5 y = layer AGG CNT H WL WR B i := by
  obtain ⟨p, q, rfl⟩ : ∃ (p : Fin 2000) (q : Fin 128), y = ix2 p q := ⟨y 0, y 1, eq_ix2 y⟩
  subst e3 e4 e5
  rw [pay1_apply]
  have hq : (i 1 : Fin 128) = q := Fin.ext hi1
  have a0 : ∀ k : Fin 128, AGG (ix2 (i 0) k) = x0 (ix2 p k) := fun k => (e0 p k (i 0) hi0).symm
  have a1 : CNT (ix2 (i 0) (0 : Fin 1)) = x1 (ix2 p (0 : Fin 1)) := (e1 p (i 0) hi0).symm
  have a2 : ∀ k : Fin 128, H (ix2 (i 0) k) = x2 (ix2 p k) := fun k => (e2 p k (i 0) hi0).symm
  show _ = sageRelu AGG (fun r => CNT (ix2 r (0 : Fin 1))) H x3 x5 x4 i
  unfold sageRelu sageAt
  simp only [a0, a1, a2, hq]

/-- WHAT POINT `t` WRITES BACK is row band `t` of the layer of the arrays as the region finds them. -/
theorem flushed_eq (c : Dev nD) (t : Fin cfg1.N) :
    (dat1 V c).flushed 6 t = ((cfg1.win 6).blk t).view.read (Elt Ideal)
      (layer (V c main_v40) (V c main_v10) (V c main_v29) (V c main_v13) (V c main_v14) (V c main_arg6)) := by
  show (cfg1.win 6).cut (grid1.coords t) ((dat1 V c).after 6 t) = _
  rw [after1_6]
  unfold out1_6
  rw [View.canon_unit_zero origin2]
  simp only [View.ld_unit_zero (S := S2000x128) origin2, View.ld_unit_zero (S := S2000x1) origin2,
    View.ld_unit_zero (S := S128x128) origin2, View.ld_unit_zero (S := S128) origin1]
  obtain ⟨f00, f01, f10, f11, f20, f21, f30, f31, f40, f41, f50, f60, f61⟩ := index_maps t
  funext j
  show k1_pay1 (iblk1 V c 0 t) (iblk1 V c 1 t) (iblk1 V c 2 t) (iblk1 V c 3 t) (iblk1 V c 4 t) (iblk1 V c 5 t) j
    = layer (V c main_v40) (V c main_v10) (V c main_v29) (V c main_v13) (V c main_v14) (V c main_arg6) (((cfg1.win 6).blk t).view.emb j)
  refine point_entry (V c main_v40) (V c main_v29) (V c main_v10) (V c main_v13) (V c main_v14) (V c main_arg6)
    (iblk1 V c 0 t) (iblk1 V c 1 t) (iblk1 V c 2 t) (iblk1 V c 3 t) (iblk1 V c 4 t) (iblk1 V c 5 t)
    t.val j (((cfg1.win 6).blk t).view.emb j) ?_ ?_ ?_ ?_ ?_ ?_ ?_ ?_
  · show win1_6.index t (0 : Fin 2) * 2000 + 1 * (j 0).val = t.val * 2000 + (j 0).val
    omega
  · show win1_6.index t (1 : Fin 2) * 128 + 1 * (j 1).val = (j 1).val
    omega
  · intro r k g hg
    show V c main_v40 (((cfg1.win 0).blk t).view.emb (ix2 r k)) = V c main_v40 (ix2 g k)
    refine congrArg _ (funext fun a => Fin.ext ?_)
    match a with
    | ⟨0, _⟩ => show win1_0.index t (0 : Fin 2) * 2000 + 1 * r.val = g.val; omega
    | ⟨1, _⟩ => show win1_0.index t (1 : Fin 2) * 128 + 1 * k.val = k.val; omega
  · intro r g hg
    show V c main_v10 (((cfg1.win 1).blk t).view.emb (ix2 r (0 : Fin 1))) = V c main_v10 (ix2 g (0 : Fin 1))
    refine congrArg _ (funext fun a => Fin.ext ?_)
    match a with
    | ⟨0, _⟩ => show win1_1.index t (0 : Fin 2) * 2000 + 1 * r.val = g.val; omega
    | ⟨1, _⟩ => show win1_1.index t (1 : Fin 2) * 1 + 1 * 0 = 0; omega
  · intro r k g hg
    show V c main_v29 (((cfg1.win 2).blk t).view.emb (ix2 r k)) = V c main_v29 (ix2 g k)
    refine congrArg _ (funext fun a => Fin.ext ?_)
    match a with
    | ⟨0, _⟩ => show win1_2.index t (0 : Fin 2) * 2000 + 1 * r.val = g.val; omega
    | ⟨1, _⟩ => show win1_2.index t (1 : Fin 2) * 128 + 1 * k.val = k.val; omega
  · funext y
    show V c main_v13 (((cfg1.win 3).blk t).view.emb y) = V c main_v13 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v14 (((cfg1.win 4).blk t).view.emb y) = V c main_v14 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_arg6 (((cfg1.win 5).blk t).view.emb y) = V c main_arg6 y
    refine congrArg _ (funext fun a => Fin.ext ?_)
    match a with
    | ⟨0, _⟩ => show win1_5.index t (0 : Fin 1) * 128 + 1 * (y 0).val = (y 0).val; omega

/-- An index of the output array is in point `t`'s block iff each coordinate is in the block's range on its axis. -/
theorem mem_band (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v41).slice (win1_6.rect t)).set ↔ _
  rw [View.set_slice_whole, Rect.mem_set_unit]
  exact Iff.rfl

/-- Every entry of the output array is in the band of the point its row divided by 2000 names. -/
theorem bands_cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < 25; omega⟩, rfl⟩
  obtain ⟨-, -, -, -, -, -, -, -, -, -, -, f60, f61⟩ := index_maps t
  refine ⟨t, flush1_6 t, ?_⟩
  rw [mem_band]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

/-- THE OUTPUT ARRAY after the region: the layer of the arrays the region was entered with. -/
theorem final (c : Dev nD) :
    (dat1 V c).arrAt 6 cfg1.N
      = layer (V c main_v40) (V c main_v10) (V c main_v29) (V c main_v13) (V c main_v14) (V c main_arg6) :=
  (dat1 V c).arrAt_eq_of_cover 6 _ (fun t _ => flushed_eq V c t) bands_cover

end Cert.KernelIdeal.Layer1

end
-- ==== Proof.Region2.lean ====
/-
  Kernel region 2: the array it leaves, as one function of the arrays it finds.

  The region runs the layer tile by tile over 25 grid points. Point t stages rows 2000·t … 2000·t + 1999 of the
  neighbour-sum array, of the degree column and of the feature array, the two weight matrices and the bias whole, and
  writes back rows 2000·t … 2000·t + 1999 of the output. What it writes is, entry by entry, the layer's entry at the
  corresponding global row: a row of the tile reads only its own row of the staged blocks, and that row is the global
  row of the arrays. The 25 row bands cover the 50000 rows, so after the run the output array is the layer of the whole
  arrays. Stated at any contents `V` the region may be entered with.
-/
import proofs.«167573_j53163105190283_2_alg».proof.Proof.KernelIdealFrameP
import proofs.«167573_j53163105190283_2_alg».proof.Proof.TilePayloads

set_option maxRecDepth 16384

noncomputable section

namespace Cert.KernelIdeal.Layer2

open Cert.KernelIdeal Cert.KernelIdeal.Gen Cert.KernelIdeal.GenP Cert.KernelIdeal.Tile Cert.Lib
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The layer of whole arrays, the degree read from a column. -/
abbrev layer (AGG : S50000x128.Idx → EReal) (CNT : S50000x1.Idx → EReal) (H : S50000x128.Idx → EReal)
    (WL WR : S256x128.Idx → EReal) (B : S256.Idx → EReal) : S50000x256.Idx → EReal :=
  sageLin AGG (fun r => CNT (ix2 r (0 : Fin 1))) H WL B WR

/-- The printed index maps over the grid: the three row-banded inputs move with the output, band t at point t; the
    weights and the bias stay at block 0. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- One entry of what a point stores: blocks that are row band `T` of the arrays (and the weights and bias whole) give,
    at tile entry `y`, the layer of the whole arrays at the global entry `i` in band `T`. -/
theorem point_entry (AGG H : S50000x128.Idx → EReal) (CNT : S50000x1.Idx → EReal) (WL WR : S256x128.Idx → EReal)
    (B : S256.Idx → EReal)
    (x0 : Vec Ideal S2000x128 .f32) (x1 : Vec Ideal S2000x1 .f32) (x2 : Vec Ideal S2000x128 .bf16)
    (x3 x4 : Vec Ideal S256x128 .bf16) (x5 : Vec Ideal S256 .f32)
    (T : ℕ) (y : S2000x256.Idx) (i : S50000x256.Idx)
    (hi0 : (i 0).val = T * 2000 + (y 0).val) (hi1 : (i 1).val = (y 1).val)
    (e0 : ∀ (r : Fin 2000) (k : Fin 128) (g : Fin 50000), g.val = T * 2000 + r.val → x0 (ix2 r k) = AGG (ix2 g k))
    (e1 : ∀ (r : Fin 2000) (g : Fin 50000), g.val = T * 2000 + r.val → x1 (ix2 r (0 : Fin 1)) = CNT (ix2 g (0 : Fin 1)))
    (e2 : ∀ (r : Fin 2000) (k : Fin 128) (g : Fin 50000), g.val = T * 2000 + r.val → x2 (ix2 r k) = H (ix2 g k))
    (e3 : x3 = WL) (e4 : x4 = WR) (e5 : x5 = B) :
    k2_pay1 x0 x1 x2 x3 x4 x5 y = layer AGG CNT H WL WR B i := by
  obtain ⟨p, q, rfl⟩ : ∃ (p : Fin 2000) (q : Fin 256), y = ix2 p q := ⟨y 0, y 1, eq_ix2 y⟩
  subst e3 e4 e5
  rw [pay2_apply]
  have hq : (i 1 : Fin 256) = q := Fin.ext hi1
  have a0 : ∀ k : Fin 128, AGG (ix2 (i 0) k) = x0 (ix2 p k) := fun k => (e0 p k (i 0) hi0).symm
  have a1 : CNT (ix2 (i 0) (0 : Fin 1)) = x1 (ix2 p (0 : Fin 1)) := (e1 p (i 0) hi0).symm
  have a2 : ∀ k : Fin 128, H (ix2 (i 0) k) = x2 (ix2 p k) := fun k => (e2 p k (i 0) hi0).symm
  show _ = sageLin AGG (fun r => CNT (ix2 r (0 : Fin 1))) H x3 x5 x4 i
  unfold sageLin sageAt
  simp only [a0, a1, a2, hq]

/-- WHAT POINT `t` WRITES BACK is row band `t` of the layer of the arrays as the region finds them. -/
theorem flushed_eq (c : Dev nD) (t : Fin cfg2.N) :
    (dat2 V c).flushed 6 t = ((cfg2.win 6).blk t).view.read (Elt Ideal)
      (layer (V c main_v52) (V c main_v10) (V c main_v41) (V c main_v15) (V c main_v16) (V c main_arg9)) := by
  show (cfg2.win 6).cut (grid2.coords t) ((dat2 V c).after 6 t) = _
  rw [after2_6]
  unfold out2_6
  rw [View.canon_unit_zero origin2]
  simp only [View.ld_unit_zero (S := S2000x128) origin2, View.ld_unit_zero (S := S2000x1) origin2,
    View.ld_unit_zero (S := S256x128) origin2, View.ld_unit_zero (S := S256) origin1]
  obtain ⟨f00, f01, f10, f11, f20, f21, f30, f31, f40, f41, f50, f60, f61⟩ := index_maps t
  funext j
  show k2_pay1 (iblk2 V c 0 t) (iblk2 V c 1 t) (iblk2 V c 2 t) (iblk2 V c 3 t) (iblk2 V c 4 t) (iblk2 V c 5 t) j
    = layer (V c main_v52) (V c main_v10) (V c main_v41) (V c main_v15) (V c main_v16) (V c main_arg9) (((cfg2.win 6).blk t).view.emb j)
  refine point_entry (V c main_v52) (V c main_v41) (V c main_v10) (V c main_v15) (V c main_v16) (V c main_arg9)
    (iblk2 V c 0 t) (iblk2 V c 1 t) (iblk2 V c 2 t) (iblk2 V c 3 t) (iblk2 V c 4 t) (iblk2 V c 5 t)
    t.val j (((cfg2.win 6).blk t).view.emb j) ?_ ?_ ?_ ?_ ?_ ?_ ?_ ?_
  · show win2_6.index t (0 : Fin 2) * 2000 + 1 * (j 0).val = t.val * 2000 + (j 0).val
    omega
  · show win2_6.index t (1 : Fin 2) * 256 + 1 * (j 1).val = (j 1).val
    omega
  · intro r k g hg
    show V c main_v52 (((cfg2.win 0).blk t).view.emb (ix2 r k)) = V c main_v52 (ix2 g k)
    refine congrArg _ (funext fun a => Fin.ext ?_)
    match a with
    | ⟨0, _⟩ => show win2_0.index t (0 : Fin 2) * 2000 + 1 * r.val = g.val; omega
    | ⟨1, _⟩ => show win2_0.index t (1 : Fin 2) * 128 + 1 * k.val = k.val; omega
  · intro r g hg
    show V c main_v10 (((cfg2.win 1).blk t).view.emb (ix2 r (0 : Fin 1))) = V c main_v10 (ix2 g (0 : Fin 1))
    refine congrArg _ (funext fun a => Fin.ext ?_)
    match a with
    | ⟨0, _⟩ => show win2_1.index t (0 : Fin 2) * 2000 + 1 * r.val = g.val; omega
    | ⟨1, _⟩ => show win2_1.index t (1 : Fin 2) * 1 + 1 * 0 = 0; omega
  · intro r k g hg
    show V c main_v41 (((cfg2.win 2).blk t).view.emb (ix2 r k)) = V c main_v41 (ix2 g k)
    refine congrArg _ (funext fun a => Fin.ext ?_)
    match a with
    | ⟨0, _⟩ => show win2_2.index t (0 : Fin 2) * 2000 + 1 * r.val = g.val; omega
    | ⟨1, _⟩ => show win2_2.index t (1 : Fin 2) * 128 + 1 * k.val = k.val; omega
  · funext y
    show V c main_v15 (((cfg2.win 3).blk t).view.emb y) = V c main_v15 y
    refine congrArg _ (funext fun a => Fin.ext ?_)
    match a with
    | ⟨0, _⟩ => show win2_3.index t (0 : Fin 2) * 256 + 1 * (y 0).val = (y 0).val; omega
    | ⟨1, _⟩ => show win2_3.index t (1 : Fin 2) * 128 + 1 * (y 1).val = (y 1).val; omega
  · funext y
    show V c main_v16 (((cfg2.win 4).blk t).view.emb y) = V c main_v16 y
    refine congrArg _ (funext fun a => Fin.ext ?_)
    match a with
    | ⟨0, _⟩ => show win2_4.index t (0 : Fin 2) * 256 + 1 * (y 0).val = (y 0).val; omega
    | ⟨1, _⟩ => show win2_4.index t (1 : Fin 2) * 128 + 1 * (y 1).val = (y 1).val; omega
  · funext y
    show V c main_arg9 (((cfg2.win 5).blk t).view.emb y) = V c main_arg9 y
    refine congrArg _ (funext fun a => Fin.ext ?_)
    match a with
    | ⟨0, _⟩ => show win2_5.index t (0 : Fin 1) * 256 + 1 * (y 0).val = (y 0).val; omega

/-- An index of the output array is in point `t`'s block iff each coordinate is in the block's range on its axis. -/
theorem mem_band (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v53).slice (win2_6.rect t)).set ↔ _
  rw [View.set_slice_whole, Rect.mem_set_unit]
  exact Iff.rfl

/-- Every entry of the output array is in the band of the point its row divided by 2000 names. -/
theorem bands_cover (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by show (i 0).val / 2000 < 25; omega⟩, rfl⟩
  obtain ⟨-, -, -, -, -, -, -, -, -, -, -, f60, f61⟩ := index_maps t
  refine ⟨t, flush2_6 t, ?_⟩
  rw [mem_band]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 256 ≤ (i 1).val ∧ (i 1).val < win2_6.index t (1 : Fin 2) * 256 + 256
    omega

/-- THE OUTPUT ARRAY after the region: the layer of the arrays the region was entered with. -/
theorem final (c : Dev nD) :
    (dat2 V c).arrAt 6 cfg2.N
      = layer (V c main_v52) (V c main_v10) (V c main_v41) (V c main_v15) (V c main_v16) (V c main_arg9) :=
  (dat2 V c).arrAt_eq_of_cover 6 _ (fun t _ => flushed_eq V c t) bands_cover

end Cert.KernelIdeal.Layer2

end
-- ==== Proof.HostParts.lean ====
/-
  The pieces the kernel program's host operations compute, named once.

  From the edge list: the source and destination index vectors; from the destinations, the clamped in-degree column;
  from node features, their neighbour sums along the edges. An array narrowed to the kernel's storage format is the
  array itself on extended reals. The three layers' outputs, each as a function of the program's arguments.
-/
import proofs.«167573_j53163105190283_2_alg».proof.Proof.Region0
import proofs.«167573_j53163105190283_2_alg».proof.Proof.Region1
import proofs.«167573_j53163105190283_2_alg».proof.Proof.Region2

noncomputable section

namespace Cert.KernelIdeal.Parts

open Cert.KernelIdeal Cert.KernelIdeal.Gen
open Idealize.ShloMosaic Idealize.ShloMosaic.TcCoe

abbrev Edges := IVec S2x800000 32
abbrev Ends := IVec S800000 32

/-- The edges' source nodes: row 0 of the edge list. -/
def srcOf (e : Edges) : Ends :=
  shapeCast S800000 (extractStridedSlice S1x800000 ![0, 0] e slices_S2x800000_S1x800000_0_0) shapeCasts_S1x800000_S800000

/-- The edges' destination nodes: row 1 of the edge list. -/
def dstOf (e : Edges) : Ends :=
  shapeCast S800000 (extractStridedSlice S1x800000 ![1, 0] e slices_S2x800000_S1x800000_1_0) shapeCasts_S1x800000_S800000

/-- The neighbour sums of the rows of `h` along edges with destinations `dst` and sources `src`: gather `h`'s rows at the
    sources (a negative source wrapped by the node count), widen, add each gathered row into its destination's row of
    the zero array. -/
def neighbourSumOf (dst src : Ends) (h : FVec Ideal S50000x128 .bf16) :
    FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf .f32 (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))) bitsLt_bf16_f32)

/-- The in-degree of every node (a one added per edge at its destination), clamped below by one, as a column. -/
def degreeColOf (dst : Ends) : FVec Ideal S50000x1 .f32 :=
  shapeCast S50000x1
    (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))
    shapeCasts_S50000_S50000x1

/-- An array narrowed to the kernel's storage format (the identity on extended reals). -/
def narrow {s : Shape} (x : FVec Ideal s .f32) : FVec Ideal s .bf16 :=
  truncf .bf16 x bitsLt_bf16_f32

abbrev Feat := FVec Ideal S50000x128 .f32
abbrev W128 := FVec Ideal S128x128 .f32
abbrev B128 := FVec Ideal S128 .f32
abbrev W256 := FVec Ideal S256x128 .f32
abbrev B256 := FVec Ideal S256 .f32

/-- The first layer's output, of the program's arguments. -/
def out1 (a0 : Feat) (e : Edges) (a2 : W128) (a3 : B128) (a4 : W128) : FVec Ideal S50000x128 .bf16 :=
  Layer0.layer (neighbourSumOf (dstOf e) (srcOf e) (narrow a0)) (degreeColOf (dstOf e)) (narrow a0) (narrow a2) (narrow a4) a3

/-- The second layer's output. -/
def out2 (a0 : Feat) (e : Edges) (a2 : W128) (a3 : B128) (a4 a5 : W128) (a6 : B128) (a7 : W128) :
    FVec Ideal S50000x128 .bf16 :=
  Layer1.layer (neighbourSumOf (dstOf e) (srcOf e) (out1 a0 e a2 a3 a4)) (degreeColOf (dstOf e)) (out1 a0 e a2 a3 a4)
    (narrow a5) (narrow a7) a6

/-- The third layer's output: the program's result. -/
def out3 (a0 : Feat) (e : Edges) (a2 : W128) (a3 : B128) (a4 a5 : W128) (a6 : B128) (a7 : W128) (a8 : W256) (a9 : B256)
    (a10 : W256) : FVec Ideal S50000x256 .f32 :=
  Layer2.layer (neighbourSumOf (dstOf e) (srcOf e) (out2 a0 e a2 a3 a4 a5 a6 a7)) (degreeColOf (dstOf e))
    (out2 a0 e a2 a3 a4 a5 a6 a7) (narrow a8) (narrow a10) a9

end Cert.KernelIdeal.Parts

end
-- ==== Proof.Stretch0.lean ====
/-
  The first stretch of host operations, read at the buffers the regions later stage.

  From the launch memory the program slices the edge list into sources and destinations, counts and clamps the
  in-degrees, narrows the features and the six weight matrices, and forms the neighbour sums of the narrowed features.
-/
import proofs.«167573_j53163105190283_2_alg».proof.Proof.KernelIdealFrameP
import proofs.«167573_j53163105190283_2_alg».proof.Proof.HostParts

set_option maxRecDepth 16384

noncomputable section

namespace Cert.KernelIdeal.Whole

open Cert.KernelIdeal Cert.KernelIdeal.Gen Cert.KernelIdeal.GenP Cert.KernelIdeal.Parts Cert.Lib
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The first stretch of host operations, from the launch memory -/

theorem W1_main_v1 (c : Dev nD) : W1 m ρ c (Proc.devRef .tc main_v1) = srcOf (m ((c.tc : Thread nD τ).loc main_arg1)) := by
  show StableHlo.after hostOps0 (W0 m ρ c) (Proc.devRef .tc main_v1) = _
  after_results_simp <;> rfl
theorem W1_main_v3 (c : Dev nD) : W1 m ρ c (Proc.devRef .tc main_v3) = dstOf (m ((c.tc : Thread nD τ).loc main_arg1)) := by
  show StableHlo.after hostOps0 (W0 m ρ c) (Proc.devRef .tc main_v3) = _
  after_results_simp <;> rfl
theorem W1_main_v10 (c : Dev nD) : W1 m ρ c (Proc.devRef .tc main_v10) = degreeColOf (dstOf (m ((c.tc : Thread nD τ).loc main_arg1))) := by
  show StableHlo.after hostOps0 (W0 m ρ c) (Proc.devRef .tc main_v10) = _
  after_results_simp <;> rfl
theorem W1_main_v17 (c : Dev nD) : W1 m ρ c (Proc.devRef .tc main_v17) = narrow (m ((c.tc : Thread nD τ).loc main_arg0)) := by
  show StableHlo.after hostOps0 (W0 m ρ c) (Proc.devRef .tc main_v17) = _
  after_results_simp <;> rfl
theorem W1_main_v28 (c : Dev nD) :
    W1 m ρ c (Proc.devRef .tc main_v28) = neighbourSumOf (dstOf (m ((c.tc : Thread nD τ).loc main_arg1))) (srcOf (m ((c.tc : Thread nD τ).loc main_arg1))) (narrow (m ((c.tc : Thread nD τ).loc main_arg0))) := by
  show StableHlo.after hostOps0 (W0 m ρ c) (Proc.devRef .tc main_v28) = _
  after_results_simp <;> rfl
theorem W1_main_v11 (c : Dev nD) : W1 m ρ c (Proc.devRef .tc main_v11) = narrow (m ((c.tc : Thread nD τ).loc main_arg2)) := by
  show StableHlo.after hostOps0 (W0 m ρ c) (Proc.devRef .tc main_v11) = _
  after_results_simp <;> rfl
theorem W1_main_v12 (c : Dev nD) : W1 m ρ c (Proc.devRef .tc main_v12) = narrow (m ((c.tc : Thread nD τ).loc main_arg4)) := by
  show StableHlo.after hostOps0 (W0 m ρ c) (Proc.devRef .tc main_v12) = _
  after_results_simp <;> rfl
theorem W1_main_v13 (c : Dev nD) : W1 m ρ c (Proc.devRef .tc main_v13) = narrow (m ((c.tc : Thread nD τ).loc main_arg5)) := by
  show StableHlo.after hostOps0 (W0 m ρ c) (Proc.devRef .tc main_v13) = _
  after_results_simp <;> rfl
theorem W1_main_v14 (c : Dev nD) : W1 m ρ c (Proc.devRef .tc main_v14) = narrow (m ((c.tc : Thread nD τ).loc main_arg7)) := by
  show StableHlo.after hostOps0 (W0 m ρ c) (Proc.devRef .tc main_v14) = _
  after_results_simp <;> rfl
theorem W1_main_v15 (c : Dev nD) : W1 m ρ c (Proc.devRef .tc main_v15) = narrow (m ((c.tc : Thread nD τ).loc main_arg8)) := by
  show StableHlo.after hostOps0 (W0 m ρ c) (Proc.devRef .tc main_v15) = _
  after_results_simp <;> rfl
theorem W1_main_v16 (c : Dev nD) : W1 m ρ c (Proc.devRef .tc main_v16) = narrow (m ((c.tc : Thread nD τ).loc main_arg10)) := by
  show StableHlo.after hostOps0 (W0 m ρ c) (Proc.devRef .tc main_v16) = _
  after_results_simp <;> rfl
theorem W1_main_arg3 (c : Dev nD) : W1 m ρ c (Proc.devRef .tc main_arg3) = (m ((c.tc : Thread nD τ).loc main_arg3)) := by
  show StableHlo.after hostOps0 (W0 m ρ c) (Proc.devRef .tc main_arg3) = _
  after_results_simp <;> rfl
theorem W1_main_arg6 (c : Dev nD) : W1 m ρ c (Proc.devRef .tc main_arg6) = (m ((c.tc : Thread nD τ).loc main_arg6)) := by
  show StableHlo.after hostOps0 (W0 m ρ c) (Proc.devRef .tc main_arg6) = _
  after_results_simp <;> rfl
theorem W1_main_arg9 (c : Dev nD) : W1 m ρ c (Proc.devRef .tc main_arg9) = (m ((c.tc : Thread nD τ).loc main_arg9)) := by
  show StableHlo.after hostOps0 (W0 m ρ c) (Proc.devRef .tc main_arg9) = _
  after_results_simp <;> rfl

end Cert.KernelIdeal.Whole

end
-- ==== Proof.Stretch12.lean ====
/-
  The second and third stretches of host operations, from any contents.

  Each forms the neighbour sums of the previous region's output — gather at the wrapped sources, widen, add into the
  destinations' rows of the zero array — and writes only its own intermediate buffers: the index vectors, the degree
  column, the narrowed weights, the biases and the previous output are as they were.
-/
import proofs.«167573_j53163105190283_2_alg».proof.Proof.KernelIdealLaunchP
import proofs.«167573_j53163105190283_2_alg».proof.Proof.HostParts

set_option maxRecDepth 16384

noncomputable section

namespace Cert.KernelIdeal.Whole

open Cert.KernelIdeal Cert.KernelIdeal.Gen Cert.KernelIdeal.GenP Cert.KernelIdeal.Parts
open Idealize.ShloMosaic Idealize.ShloMosaic.TcCoe Idealize.SL.Sem

set_option maxHeartbeats 1000000 in
theorem stretch1_main_v40 (Wv : Valuation τ sig (Elt Ideal)) : StableHlo.after hostOps1 Wv (Proc.devRef .tc main_v40)
    = neighbourSumOf (Wv (Proc.devRef .tc main_v3)) (Wv (Proc.devRef .tc main_v1)) (Wv (Proc.devRef .tc main_v29)) := by
  after_results_simp <;> rfl
theorem stretch1_main_v10 (Wv : Valuation τ sig (Elt Ideal)) : StableHlo.after hostOps1 Wv (Proc.devRef .tc main_v10) = Wv (Proc.devRef .tc main_v10) := by
  after_results <;> rfl
theorem stretch1_main_v29 (Wv : Valuation τ sig (Elt Ideal)) : StableHlo.after hostOps1 Wv (Proc.devRef .tc main_v29) = Wv (Proc.devRef .tc main_v29) := by
  after_results <;> rfl
theorem stretch1_main_v13 (Wv : Valuation τ sig (Elt Ideal)) : StableHlo.after hostOps1 Wv (Proc.devRef .tc main_v13) = Wv (Proc.devRef .tc main_v13) := by
  after_results <;> rfl
theorem stretch1_main_v14 (Wv : Valuation τ sig (Elt Ideal)) : StableHlo.after hostOps1 Wv (Proc.devRef .tc main_v14) = Wv (Proc.devRef .tc main_v14) := by
  after_results <;> rfl
theorem stretch1_main_arg6 (Wv : Valuation τ sig (Elt Ideal)) : StableHlo.after hostOps1 Wv (Proc.devRef .tc main_arg6) = Wv (Proc.devRef .tc main_arg6) := by
  after_results <;> rfl
theorem stretch1_main_v1 (Wv : Valuation τ sig (Elt Ideal)) : StableHlo.after hostOps1 Wv (Proc.devRef .tc main_v1) = Wv (Proc.devRef .tc main_v1) := by
  after_results <;> rfl
theorem stretch1_main_v3 (Wv : Valuation τ sig (Elt Ideal)) : StableHlo.after hostOps1 Wv (Proc.devRef .tc main_v3) = Wv (Proc.devRef .tc main_v3) := by
  after_results <;> rfl
theorem stretch1_main_v15 (Wv : Valuation τ sig (Elt Ideal)) : StableHlo.after hostOps1 Wv (Proc.devRef .tc main_v15) = Wv (Proc.devRef .tc main_v15) := by
  after_results <;> rfl
theorem stretch1_main_v16 (Wv : Valuation τ sig (Elt Ideal)) : StableHlo.after hostOps1 Wv (Proc.devRef .tc main_v16) = Wv (Proc.devRef .tc main_v16) := by
  after_results <;> rfl
theorem stretch1_main_arg9 (Wv : Valuation τ sig (Elt Ideal)) : StableHlo.after hostOps1 Wv (Proc.devRef .tc main_arg9) = Wv (Proc.devRef .tc main_arg9) := by
  after_results <;> rfl

set_option maxHeartbeats 1000000 in
theorem stretch2_main_v52 (Wv : Valuation τ sig (Elt Ideal)) : StableHlo.after hostOps2 Wv (Proc.devRef .tc main_v52)
    = neighbourSumOf (Wv (Proc.devRef .tc main_v3)) (Wv (Proc.devRef .tc main_v1)) (Wv (Proc.devRef .tc main_v41)) := by
  after_results_simp <;> rfl
theorem stretch2_main_v10 (Wv : Valuation τ sig (Elt Ideal)) : StableHlo.after hostOps2 Wv (Proc.devRef .tc main_v10) = Wv (Proc.devRef .tc main_v10) := by
  after_results <;> rfl
theorem stretch2_main_v41 (Wv : Valuation τ sig (Elt Ideal)) : StableHlo.after hostOps2 Wv (Proc.devRef .tc main_v41) = Wv (Proc.devRef .tc main_v41) := by
  after_results <;> rfl
theorem stretch2_main_v15 (Wv : Valuation τ sig (Elt Ideal)) : StableHlo.after hostOps2 Wv (Proc.devRef .tc main_v15) = Wv (Proc.devRef .tc main_v15) := by
  after_results <;> rfl
theorem stretch2_main_v16 (Wv : Valuation τ sig (Elt Ideal)) : StableHlo.after hostOps2 Wv (Proc.devRef .tc main_v16) = Wv (Proc.devRef .tc main_v16) := by
  after_results <;> rfl
theorem stretch2_main_arg9 (Wv : Valuation τ sig (Elt Ideal)) : StableHlo.after hostOps2 Wv (Proc.devRef .tc main_arg9) = Wv (Proc.devRef .tc main_arg9) := by
  after_results <;> rfl

end Cert.KernelIdeal.Whole

end
-- ==== Proof.KernelValue.lean ====
/-
  The idealized kernel program's result as one term of its arguments.

  Between the launch and the return the program's buffers pass six boundaries: three stretches of host operations, each
  followed by a kernel region. A region replaces its output array by the layer of the arrays it was entered with (the
  three region modules) and leaves every other buffer alone; a stretch computes the neighbour sums of the current node
  features and leaves the rest alone. Following the result buffer back through the six boundaries gives three nested
  layers over the launch contents of the arguments.
-/
import proofs.«167573_j53163105190283_2_alg».proof.Proof.KernelIdealFrameP
import proofs.«167573_j53163105190283_2_alg».proof.Proof.HostParts
import proofs.«167573_j53163105190283_2_alg».proof.Proof.Stretch0
import proofs.«167573_j53163105190283_2_alg».proof.Proof.Stretch12

set_option maxRecDepth 16384

noncomputable section

namespace Cert.KernelIdeal.Whole

open Cert.KernelIdeal Cert.KernelIdeal.Gen Cert.KernelIdeal.GenP Cert.KernelIdeal.Parts Cert.Lib
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Region 0: its output is the first layer; every other buffer is as the region found it -/

theorem W2_main_v29 (c : Dev nD) : W2 m ρ c (Proc.devRef .tc main_v29)
    = Layer0.layer (V1 m ρ c main_v28) (V1 m ρ c main_v10) (V1 m ρ c main_v17) (V1 m ρ c main_v11) (V1 m ρ c main_v12) (V1 m ρ c main_arg3) :=
  (W2_arr m ρ c 6).trans (Layer0.final (V1 m ρ) c)
theorem W2_main_v10 (c : Dev nD) : W2 m ρ c (Proc.devRef .tc main_v10) = W1 m ρ c (Proc.devRef .tc main_v10) :=
  (W2_arr m ρ c 1).trans (((dat0 (V1 m ρ) c).arrAt_in 1 rfl _).trans (A_eq0 (V1 m ρ) c 1))
theorem W2_main_v1 (c : Dev nD) : W2 m ρ c (Proc.devRef .tc main_v1) = W1 m ρ c (Proc.devRef .tc main_v1) :=
  W2_of_ne m ρ c main_v1 (by decide)
theorem W2_main_v3 (c : Dev nD) : W2 m ρ c (Proc.devRef .tc main_v3) = W1 m ρ c (Proc.devRef .tc main_v3) :=
  W2_of_ne m ρ c main_v3 (by decide)
theorem W2_main_v13 (c : Dev nD) : W2 m ρ c (Proc.devRef .tc main_v13) = W1 m ρ c (Proc.devRef .tc main_v13) :=
  W2_of_ne m ρ c main_v13 (by decide)
theorem W2_main_v14 (c : Dev nD) : W2 m ρ c (Proc.devRef .tc main_v14) = W1 m ρ c (Proc.devRef .tc main_v14) :=
  W2_of_ne m ρ c main_v14 (by decide)
theorem W2_main_v15 (c : Dev nD) : W2 m ρ c (Proc.devRef .tc main_v15) = W1 m ρ c (Proc.devRef .tc main_v15) :=
  W2_of_ne m ρ c main_v15 (by decide)
theorem W2_main_v16 (c : Dev nD) : W2 m ρ c (Proc.devRef .tc main_v16) = W1 m ρ c (Proc.devRef .tc main_v16) :=
  W2_of_ne m ρ c main_v16 (by decide)
theorem W2_main_arg6 (c : Dev nD) : W2 m ρ c (Proc.devRef .tc main_arg6) = W1 m ρ c (Proc.devRef .tc main_arg6) :=
  W2_of_ne m ρ c main_arg6 (by decide)
theorem W2_main_arg9 (c : Dev nD) : W2 m ρ c (Proc.devRef .tc main_arg9) = W1 m ρ c (Proc.devRef .tc main_arg9) :=
  W2_of_ne m ρ c main_arg9 (by decide)

/-! ## The second stretch: the neighbour sums of the first layer's output -/

theorem W3_main_v40 (c : Dev nD) : W3 m ρ c (Proc.devRef .tc main_v40)
    = neighbourSumOf (W2 m ρ c (Proc.devRef .tc main_v3)) (W2 m ρ c (Proc.devRef .tc main_v1)) (W2 m ρ c (Proc.devRef .tc main_v29)) :=
  stretch1_main_v40 (W2 m ρ c)
theorem W3_main_v10 (c : Dev nD) : W3 m ρ c (Proc.devRef .tc main_v10) = W2 m ρ c (Proc.devRef .tc main_v10) := stretch1_main_v10 (W2 m ρ c)
theorem W3_main_v29 (c : Dev nD) : W3 m ρ c (Proc.devRef .tc main_v29) = W2 m ρ c (Proc.devRef .tc main_v29) := stretch1_main_v29 (W2 m ρ c)
theorem W3_main_v13 (c : Dev nD) : W3 m ρ c (Proc.devRef .tc main_v13) = W2 m ρ c (Proc.devRef .tc main_v13) := stretch1_main_v13 (W2 m ρ c)
theorem W3_main_v14 (c : Dev nD) : W3 m ρ c (Proc.devRef .tc main_v14) = W2 m ρ c (Proc.devRef .tc main_v14) := stretch1_main_v14 (W2 m ρ c)
theorem W3_main_arg6 (c : Dev nD) : W3 m ρ c (Proc.devRef .tc main_arg6) = W2 m ρ c (Proc.devRef .tc main_arg6) := stretch1_main_arg6 (W2 m ρ c)
theorem W3_main_v1 (c : Dev nD) : W3 m ρ c (Proc.devRef .tc main_v1) = W2 m ρ c (Proc.devRef .tc main_v1) := stretch1_main_v1 (W2 m ρ c)
theorem W3_main_v3 (c : Dev nD) : W3 m ρ c (Proc.devRef .tc main_v3) = W2 m ρ c (Proc.devRef .tc main_v3) := stretch1_main_v3 (W2 m ρ c)
theorem W3_main_v15 (c : Dev nD) : W3 m ρ c (Proc.devRef .tc main_v15) = W2 m ρ c (Proc.devRef .tc main_v15) := stretch1_main_v15 (W2 m ρ c)
theorem W3_main_v16 (c : Dev nD) : W3 m ρ c (Proc.devRef .tc main_v16) = W2 m ρ c (Proc.devRef .tc main_v16) := stretch1_main_v16 (W2 m ρ c)
theorem W3_main_arg9 (c : Dev nD) : W3 m ρ c (Proc.devRef .tc main_arg9) = W2 m ρ c (Proc.devRef .tc main_arg9) := stretch1_main_arg9 (W2 m ρ c)

/-! ## Region 1 -/

theorem W4_main_v41 (c : Dev nD) : W4 m ρ c (Proc.devRef .tc main_v41)
    = Layer1.layer (V3 m ρ c main_v40) (V3 m ρ c main_v10) (V3 m ρ c main_v29) (V3 m ρ c main_v13) (V3 m ρ c main_v14) (V3 m ρ c main_arg6) :=
  (W4_arr m ρ c 6).trans (Layer1.final (V3 m ρ) c)
theorem W4_main_v10 (c : Dev nD) : W4 m ρ c (Proc.devRef .tc main_v10) = W3 m ρ c (Proc.devRef .tc main_v10) :=
  (W4_arr m ρ c 1).trans (((dat1 (V3 m ρ) c).arrAt_in 1 rfl _).trans (A_eq1 (V3 m ρ) c 1))
theorem W4_main_v1 (c : Dev nD) : W4 m ρ c (Proc.devRef .tc main_v1) = W3 m ρ c (Proc.devRef .tc main_v1) :=
  W4_of_ne m ρ c main_v1 (by decide)
theorem W4_main_v3 (c : Dev nD) : W4 m ρ c (Proc.devRef .tc main_v3) = W3 m ρ c (Proc.devRef .tc main_v3) :=
  W4_of_ne m ρ c main_v3 (by decide)
theorem W4_main_v15 (c : Dev nD) : W4 m ρ c (Proc.devRef .tc main_v15) = W3 m ρ c (Proc.devRef .tc main_v15) :=
  W4_of_ne m ρ c main_v15 (by decide)
theorem W4_main_v16 (c : Dev nD) : W4 m ρ c (Proc.devRef .tc main_v16) = W3 m ρ c (Proc.devRef .tc main_v16) :=
  W4_of_ne m ρ c main_v16 (by decide)
theorem W4_main_arg9 (c : Dev nD) : W4 m ρ c (Proc.devRef .tc main_arg9) = W3 m ρ c (Proc.devRef .tc main_arg9) :=
  W4_of_ne m ρ c main_arg9 (by decide)

/-! ## The third stretch -/

theorem W5_main_v52 (c : Dev nD) : W5 m ρ c (Proc.devRef .tc main_v52)
    = neighbourSumOf (W4 m ρ c (Proc.devRef .tc main_v3)) (W4 m ρ c (Proc.devRef .tc main_v1)) (W4 m ρ c (Proc.devRef .tc main_v41)) :=
  stretch2_main_v52 (W4 m ρ c)
theorem W5_main_v10 (c : Dev nD) : W5 m ρ c (Proc.devRef .tc main_v10) = W4 m ρ c (Proc.devRef .tc main_v10) := stretch2_main_v10 (W4 m ρ c)
theorem W5_main_v41 (c : Dev nD) : W5 m ρ c (Proc.devRef .tc main_v41) = W4 m ρ c (Proc.devRef .tc main_v41) := stretch2_main_v41 (W4 m ρ c)
theorem W5_main_v15 (c : Dev nD) : W5 m ρ c (Proc.devRef .tc main_v15) = W4 m ρ c (Proc.devRef .tc main_v15) := stretch2_main_v15 (W4 m ρ c)
theorem W5_main_v16 (c : Dev nD) : W5 m ρ c (Proc.devRef .tc main_v16) = W4 m ρ c (Proc.devRef .tc main_v16) := stretch2_main_v16 (W4 m ρ c)
theorem W5_main_arg9 (c : Dev nD) : W5 m ρ c (Proc.devRef .tc main_arg9) = W4 m ρ c (Proc.devRef .tc main_arg9) := stretch2_main_arg9 (W4 m ρ c)

/-! ## Region 2 -/

theorem W6_main_v53 (c : Dev nD) : W6 m ρ c (Proc.devRef .tc main_v53)
    = Layer2.layer (V5 m ρ c main_v52) (V5 m ρ c main_v10) (V5 m ρ c main_v41) (V5 m ρ c main_v15) (V5 m ρ c main_v16) (V5 m ρ c main_arg9) :=
  (W6_arr m ρ c 6).trans (Layer2.final (V5 m ρ) c)

/-! ## The result -/

theorem out_of_region0 (c : Dev nD) : W2 m ρ c (Proc.devRef .tc main_v29) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [W2_main_v29]
  show Layer0.layer (W1 m ρ c (Proc.devRef .tc main_v28)) (W1 m ρ c (Proc.devRef .tc main_v10)) (W1 m ρ c (Proc.devRef .tc main_v17))
    (W1 m ρ c (Proc.devRef .tc main_v11)) (W1 m ρ c (Proc.devRef .tc main_v12)) (W1 m ρ c (Proc.devRef .tc main_arg3)) = _
  rw [W1_main_v28, W1_main_v10, W1_main_v17, W1_main_v11, W1_main_v12, W1_main_arg3]
  rfl

theorem out_of_region1 (c : Dev nD) : W4 m ρ c (Proc.devRef .tc main_v41) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W4_main_v41]
  show Layer1.layer (W3 m ρ c (Proc.devRef .tc main_v40)) (W3 m ρ c (Proc.devRef .tc main_v10)) (W3 m ρ c (Proc.devRef .tc main_v29))
    (W3 m ρ c (Proc.devRef .tc main_v13)) (W3 m ρ c (Proc.devRef .tc main_v14)) (W3 m ρ c (Proc.devRef .tc main_arg6)) = _
  rw [W3_main_v40, W3_main_v10, W3_main_v29, W3_main_v13, W3_main_v14, W3_main_arg6,
    W2_main_v3, W2_main_v1, out_of_region0, W2_main_v10, W2_main_v13, W2_main_v14, W2_main_arg6,
    W1_main_v3, W1_main_v1, W1_main_v10, W1_main_v13, W1_main_v14, W1_main_arg6]
  rfl

/-- THE RESULT BUFFER at the return: the third layer, of the second layer's output, of the first's, of the launch
    contents of the arguments. -/
theorem result (c : Dev nD) : W6 m ρ c (Proc.devRef .tc main_v53) = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [W6_main_v53]
  show Layer2.layer (W5 m ρ c (Proc.devRef .tc main_v52)) (W5 m ρ c (Proc.devRef .tc main_v10)) (W5 m ρ c (Proc.devRef .tc main_v41))
    (W5 m ρ c (Proc.devRef .tc main_v15)) (W5 m ρ c (Proc.devRef .tc main_v16)) (W5 m ρ c (Proc.devRef .tc main_arg9)) = _
  rw [W5_main_v52, W5_main_v10, W5_main_v41, W5_main_v15, W5_main_v16, W5_main_arg9,
    W4_main_v3, W4_main_v1, out_of_region1, W4_main_v10, W4_main_v15, W4_main_v16, W4_main_arg9,
    W3_main_v3, W3_main_v1, W3_main_v10, W3_main_v15, W3_main_v16, W3_main_arg9,
    W2_main_v3, W2_main_v1, W2_main_v10, W2_main_v15, W2_main_v16, W2_main_arg9,
    W1_main_v3, W1_main_v1, W1_main_v10, W1_main_v15, W1_main_v16, W1_main_arg9]
  rfl

end Cert.KernelIdeal.Whole

end
-- ==== Proof.RefLayers.lean ====
/-
  The reference program's three layers, each as the layer of its inputs.

  The reference computes, for the current node features h: the neighbour sums of h (gather the rows at the edges'
  sources, a negative index wrapped; add each into its destination's row of the zero array), the nodes' in-degrees
  clamped below by one, and then the layer — neighbour sums over degrees through the transposed left weights, plus the
  bias, plus h through the transposed right weights —, rectified after the first two layers. The neighbour sums and the
  degrees stay unopened here: they are the same host operations on both sides of the certificate.
-/
import proofs.«167573_j53163105190283_2_alg».proof.Proof.Gen.ReferenceIdeal.Read
import proofs.«167573_j53163105190283_2_alg».proof.Proof.LibSageLayer

noncomputable section

namespace Cert.ReferenceIdeal.Layers

open Cert.ReferenceIdeal Cert.ReferenceIdeal.Gen Cert.ReferenceIdeal.Read Cert.Lib
open Idealize.ShloMosaic Idealize.ShloMosaic.ValueIdx

abbrev Edges := IVec S2x800000 32
abbrev Feat := FVec Ideal S50000x128 .f32
abbrev W128 := FVec Ideal S128x128 .f32
abbrev B128 := FVec Ideal S128 .f32
abbrev W256 := FVec Ideal S256x128 .f32
abbrev B256 := FVec Ideal S256 .f32

/-- The nodes' in-degrees, clamped below by one. -/
def degree (e : Edges) : FVec Ideal S50000 .f32 := val_main_v19 (F := Ideal) e

/-- The neighbour sums of the rows of `h`. -/
def neighbourSum (e : Edges) (h : Feat) : Feat :=
  Host.scatterAdd scatter_S50000x128_S800000x1_S800000x128_1_0_0_1 (val_main_v11 (F := Ideal)) (val_main_v12 (F := Ideal) e)
    (Host.gather gather_S50000x128_S800000x1_S800000x128_1_0_n_n_0_1_1128 h (val_main_v9 (F := Ideal) e))

/-- The printed products' dimension numbers are those of a plain matrix product. -/
theorem dot128_eq : dot_S50000x128_S128x128_S50000x128_1_0_0_1_n_n = plain2 dot_S50000x128_S128x128_S50000x128_1_0_0_1_n_n_wf := rfl
theorem dot256_eq : dot_S50000x128_S128x256_S50000x256_1_0_0_1_n_n = plain2 dot_S50000x128_S128x256_S50000x256_1_0_0_1_n_n_wf := rfl

/-- A rectified layer in the reference's operations is the rectified layer of its inputs. -/
theorem hostLayer_relu (agg h : Feat) (cnt : FVec Ideal S50000 .f32) (wl wr : W128) (b : B128) :
    maximumf
        (addf (addf
          (Host.dotGeneral dot_S50000x128_S128x128_S50000x128_1_0_0_1_n_n none
            (Host.divf agg (broadcastInDim S50000x128 ![0, 1] bcast_S50000x1_S50000x128_0_1 (broadcastInDim S50000x1 ![0] bcast_S50000_S50000x1_0 cnt)))
            (transpose S128x128 [1, 0] wl transposes_S128x128_S128x128_1_0))
          (broadcastInDim S50000x128 ![0, 1] bcast_S1x128_S50000x128_0_1 (broadcastInDim S1x128 ![1] bcast_S128_S1x128_1 b)))
          (Host.dotGeneral dot_S50000x128_S128x128_S50000x128_1_0_0_1_n_n none h (transpose S128x128 [1, 0] wr transposes_S128x128_S128x128_1_0)))
        (broadcastInDim S50000x128 ![] bcast_S_S50000x128 (constant (F := Ideal) S_ .f32 0x00000000#32))
      = sageRelu agg (fun r => cnt (ix1 r)) h wl b wr := by
  funext i
  obtain ⟨p, q, rfl⟩ : ∃ (p : Fin 50000) (q : Fin 128), i = ix2 p q := ⟨i 0, i 1, eq_ix2 i⟩
  rw [dot128_eq]
  refine (maximumf_apply _ _ _).trans ?_
  refine congrArg₂ max ?_ ?_
  · exact sageHost_apply dot_S50000x128_S128x128_S50000x128_1_0_0_1_n_n_wf agg h cnt wl wr b bcast_S50000_S50000x1_0
      bcast_S50000x1_S50000x128_0_1 transposes_S128x128_S128x128_1_0 bcast_S128_S1x128_1 bcast_S1x128_S50000x128_0_1 p q
  · exact broadcastInDim_apply _ bcast_S_S50000x128 _ (ix2 p q) ix0 (fun a => a.elim0)

/-- The last layer (256 columns, no rectifier) in the reference's operations is the layer of its inputs. -/
theorem hostLayer_lin (agg h : Feat) (cnt : FVec Ideal S50000 .f32) (wl wr : W256) (b : B256) :
    addf (addf
          (Host.dotGeneral dot_S50000x128_S128x256_S50000x256_1_0_0_1_n_n none
            (Host.divf agg (broadcastInDim S50000x128 ![0, 1] bcast_S50000x1_S50000x128_0_1 (broadcastInDim S50000x1 ![0] bcast_S50000_S50000x1_0 cnt)))
            (transpose S128x256 [1, 0] wl transposes_S256x128_S128x256_1_0))
          (broadcastInDim S50000x256 ![0, 1] bcast_S1x256_S50000x256_0_1 (broadcastInDim S1x256 ![1] bcast_S256_S1x256_1 b)))
          (Host.dotGeneral dot_S50000x128_S128x256_S50000x256_1_0_0_1_n_n none h (transpose S128x256 [1, 0] wr transposes_S256x128_S128x256_1_0))
      = sageLin agg (fun r => cnt (ix1 r)) h wl b wr := by
  funext i
  obtain ⟨p, q, rfl⟩ : ∃ (p : Fin 50000) (q : Fin 256), i = ix2 p q := ⟨i 0, i 1, eq_ix2 i⟩
  rw [dot256_eq]
  exact sageHost_apply dot_S50000x128_S128x256_S50000x256_1_0_0_1_n_n_wf agg h cnt wl wr b bcast_S50000_S50000x1_0
    bcast_S50000x1_S50000x128_0_1 transposes_S256x128_S128x256_1_0 bcast_S256_S1x256_1 bcast_S1x256_S50000x256_0_1 p q

/-- The first layer's stage. -/
theorem layer1 (x0 : Feat) (x1 : Edges) (x2 : W128) (x3 : B128) (x4 : W128) :
    val_main_v31 (F := Ideal) x0 x1 x2 x3 x4 = sageRelu (neighbourSum x1 x0) (fun r => degree x1 (ix1 r)) x0 x2 x3 x4 :=
  hostLayer_relu (val_main_v13 (F := Ideal) x0 x1) x0 (val_main_v19 (F := Ideal) x1) x2 x4 x3

/-- The second layer's stage, over the first's. -/
theorem layer2 (x0 : Feat) (x1 : Edges) (x2 : W128) (x3 : B128) (x4 : W128) (x5 : W128) (x6 : B128) (x7 : W128) :
    val_main_v59 (F := Ideal) x0 x1 x2 x3 x4 x5 x6 x7
      = sageRelu (neighbourSum x1 (val_main_v31 (F := Ideal) x0 x1 x2 x3 x4)) (fun r => degree x1 (ix1 r))
          (val_main_v31 (F := Ideal) x0 x1 x2 x3 x4) x5 x6 x7 :=
  hostLayer_relu (val_main_v41 (F := Ideal) x0 x1 x2 x3 x4) (val_main_v31 (F := Ideal) x0 x1 x2 x3 x4) (val_main_v47 (F := Ideal) x1) x5 x7 x6

/-- The third layer's stage, over the second's. -/
theorem layer3 (x0 : Feat) (x1 : Edges) (x2 : W128) (x3 : B128) (x4 : W128) (x5 : W128) (x6 : B128) (x7 : W128) (x8 : W256) (x9 : B256) (x10 : W256) :
    val_main_v86 (F := Ideal) x0 x1 x2 x3 x4 x5 x6 x7 x8 x9 x10
      = sageLin (neighbourSum x1 (val_main_v59 (F := Ideal) x0 x1 x2 x3 x4 x5 x6 x7)) (fun r => degree x1 (ix1 r))
          (val_main_v59 (F := Ideal) x0 x1 x2 x3 x4 x5 x6 x7) x8 x9 x10 :=
  hostLayer_lin (val_main_v69 (F := Ideal) x0 x1 x2 x3 x4 x5 x6 x7) (val_main_v59 (F := Ideal) x0 x1 x2 x3 x4 x5 x6 x7) (val_main_v75 (F := Ideal) x1) x8 x10 x9

end Cert.ReferenceIdeal.Layers

end
-- ==== Proof.LibColumnCast.lean ====
/-
  A vector made a column, read at an entry.

  Reshaping a vector of a entries to an [a, 1] matrix keeps the row-major order, so the matrix's entry (i, 0) is the
  vector's entry i. Generic in the extent and the element type.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.Joined.lean ====
/-
  The kernel program's result and the reference's are one function of the arguments.

  Layer by layer the two programs compute the same thing. The kernel narrows its inputs and each layer's output to a
  shorter float format and widens what it gathers — the identity on extended reals; it reads the clamped in-degree from
  a column where the reference reads a vector; its neighbour sums are the reference's operations on the same edge list;
  and its layer adds the bias after the second product where the reference adds it before — one sum, since addition of
  extended reals is commutative and associative. So the first layers agree, hence the second, hence the third.
-/
import proofs.«167573_j53163105190283_2_alg».proof.Proof.KernelValue
import proofs.«167573_j53163105190283_2_alg».proof.Proof.RefLayers
import proofs.«167573_j53163105190283_2_alg».proof.Proof.LibColumnCast

noncomputable section

namespace Cert.Joined

open Cert.Lib Idealize.ShloMosaic Idealize.ShloMosaic.ValueIdx
open Cert.KernelIdeal.Parts (narrow neighbourSumOf degreeColOf dstOf srcOf out1 out2 out3)
open Cert.ReferenceIdeal.Layers (neighbourSum degree layer1 layer2 layer3)
open Cert.ReferenceIdeal.Read (val_main_v31 val_main_v59 val_main_v86)

abbrev Edges := Cert.ReferenceIdeal.Layers.Edges
abbrev Feat := Cert.ReferenceIdeal.Layers.Feat
abbrev W128 := Cert.ReferenceIdeal.Layers.W128
abbrev B128 := Cert.ReferenceIdeal.Layers.B128
abbrev W256 := Cert.ReferenceIdeal.Layers.W256
abbrev B256 := Cert.ReferenceIdeal.Layers.B256

/-- Narrowing the float format is the identity on extended reals. -/
theorem narrow_eq {s : Shape} (x : FVec Ideal s .f32) : narrow x = x := rfl

/-- The kernel program's neighbour sums are the reference's: the same gather and scatter-add on the same index
    vectors, the widening of the gathered rows the identity. -/
theorem sums_eq (e : Edges) (h : Feat) : neighbourSumOf (dstOf e) (srcOf e) h = neighbourSum e h := rfl

/-- The clamped in-degree read from the kernel program's column is the one read from the reference's vector. -/
theorem degree_eq (e : Edges) :
    (fun r : Fin 50000 => degreeColOf (dstOf e) (ix2 r (0 : Fin 1))) = fun r : Fin 50000 => degree e (ix1 r) := by
  funext r
  unfold degreeColOf
  rw [shapeCast_a_a1_apply]
  rfl

/-- The first layers agree. -/
theorem out1_eq (a0 : Feat) (e : Edges) (a2 : W128) (a3 : B128) (a4 : W128) :
    out1 a0 e a2 a3 a4 = val_main_v31 (F := Ideal) a0 e a2 a3 a4 := by
  rw [layer1]
  show sageRelu (neighbourSumOf (dstOf e) (srcOf e) (narrow a0)) (fun r => degreeColOf (dstOf e) (ix2 r (0 : Fin 1)))
    (narrow a0) (narrow a2) a3 (narrow a4) = _
  rw [degree_eq, narrow_eq, narrow_eq, narrow_eq, sums_eq]

/-- So the second layers agree. -/
theorem out2_eq (a0 : Feat) (e : Edges) (a2 : W128) (a3 : B128) (a4 a5 : W128) (a6 : B128) (a7 : W128) :
    out2 a0 e a2 a3 a4 a5 a6 a7 = val_main_v59 (F := Ideal) a0 e a2 a3 a4 a5 a6 a7 := by
  rw [layer2]
  show sageRelu (neighbourSumOf (dstOf e) (srcOf e) (out1 a0 e a2 a3 a4)) (fun r => degreeColOf (dstOf e) (ix2 r (0 : Fin 1)))
    (out1 a0 e a2 a3 a4) (narrow a5) a6 (narrow a7) = _
  rw [degree_eq, narrow_eq, narrow_eq, out1_eq, sums_eq]

/-- And the results agree. -/
theorem out3_eq (a0 : Feat) (e : Edges) (a2 : W128) (a3 : B128) (a4 a5 : W128) (a6 : B128) (a7 : W128) (a8 : W256)
    (a9 : B256) (a10 : W256) :
    out3 a0 e a2 a3 a4 a5 a6 a7 a8 a9 a10 = val_main_v86 (F := Ideal) a0 e a2 a3 a4 a5 a6 a7 a8 a9 a10 := by
  rw [layer3]
  show sageLin (neighbourSumOf (dstOf e) (srcOf e) (out2 a0 e a2 a3 a4 a5 a6 a7)) (fun r => degreeColOf (dstOf e) (ix2 r (0 : Fin 1)))
    (out2 a0 e a2 a3 a4 a5 a6 a7) (narrow a8) a9 (narrow a10) = _
  rw [degree_eq, narrow_eq, narrow_eq, out2_eq, sums_eq]

end Cert.Joined

end
-- ==== Proof.lean ====
/-
  The certificate of a three-layer mean-aggregating graph network: a kernel program that runs each layer's dense part
  tile by tile in a kernel region, against a host reference.

  Each layer maps node features h to  (neighbour sums of h / clamped in-degree) · Wlᵀ + b + h · Wrᵀ, rectified after
  the first two layers. The frames of the two kernel programs are the frame certificates of their three regions among
  host stretches; the reference's frame is its run with the result dropped. Nothing was rewritten by the idealization,
  so it preserves trivially. For the value claim the kernel program's run leaves its result buffer at three nested
  layers of the launch contents (the run's boundaries followed back, each region's output array read as the layer of
  the arrays it was entered with), the reference's run leaves its result at its operations' term, and the two are one
  function of the arguments: the formats' changes are the identity on extended reals, the gather and scatter-add are
  the same operations on the same edge list, and the bias is added in another place of one commutative sum.
-/
import proofs.«167573_j53163105190283_2_alg».proof.Defs
import proofs.«167573_j53163105190283_2_alg».proof.Proof.Gen.Kernel
import proofs.«167573_j53163105190283_2_alg».proof.Proof.KernelFrameP
import proofs.«167573_j53163105190283_2_alg».proof.Proof.Gen.KernelIdeal
import proofs.«167573_j53163105190283_2_alg».proof.Proof.KernelIdealFrameP
import proofs.«167573_j53163105190283_2_alg».proof.Proof.Gen.ReferenceIdeal
import proofs.«167573_j53163105190283_2_alg».proof.Proof.Gen.ReferenceIdeal.Run
import proofs.«167573_j53163105190283_2_alg».proof.Proof.Gen.ReferenceIdeal.Read
import proofs.«167573_j53163105190283_2_alg».proof.Proof.Gen.Pre_finite_inputs
import proofs.«167573_j53163105190283_2_alg».proof.Proof.KernelRun
import proofs.«167573_j53163105190283_2_alg».proof.Proof.KernelValue
import proofs.«167573_j53163105190283_2_alg».proof.Proof.Joined
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with their result at the third layer of the arguments. -/
theorem algebraic : Cert.algebraic_KernelIdeal_ReferenceIdeal := by
  intro m ρ m' ρ' _ hagree
  refine ⟨fun c => Cert.KernelIdeal.Parts.out3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.result m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v86_eq, h0, h1, h2, h3, h4, h5, h6, h7, h8, h9, h10]
    exact (Cert.Joined.out3_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
